-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S8192x8192 .f32) (main_arg2 : FVec F S1024x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S1x1024 : Shape := ⟨2, ![1, 1024]⟩
abbrev S256x4096 : Shape := ⟨2, ![256, 4096]⟩
abbrev S256x1024 : Shape := ⟨2, ![256, 1024]⟩
abbrev S4096x1024 : Shape := ⟨2, ![4096, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S1024x1024, .f32⟩
  | .hbm, ⟨3, _⟩ => ⟨S1024, .f32⟩
  | .hbm, ⟨4, _⟩ => ⟨S8192x1024, .bf16⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8192x1024, .f32⟩
  | .local _ .vmem, ⟨0, _⟩ => ⟨S256x4096, .f32⟩
  | .local _ .vmem, ⟨1, _⟩ => ⟨S256x4096, .f32⟩
  | .local _ .vmem, ⟨2, _⟩ => ⟨S8192x1024, .bf16⟩
  | .local _ .vmem, ⟨3, _⟩ => ⟨S1024x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c4096_i32 : BitVec 32 := 4096#32
  let v5 : BitVec 32 := Scalar.muli arg1 c4096_i32
  v5
def k0_off1 (i : grid0.Coords) : Fin 2 → Nat :=
  let arg1 : BitVec 32 := BitVec.ofNat 32 (i 1).val
  let c4096_i32 : BitVec 32 := 4096#32
  let v5 : BitVec 32 := Scalar.muli arg1 c4096_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x4096_S256x4096_0_0 : ∀ a, (![0, 0] : Fin 2 → Nat) a + S256x4096.size a ≤ S256x4096.size a
  h_S256x4096 : 0 < S256x4096.numel
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x4096_S4096x1024_S256x1024_1_0_0_1_n_n_wf : DotDims.WF S256x4096 S4096x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x8192.size a
  hwx0_0 : ∀ i : grid0.Coords, EltTy.bits .f32 = 32 ∨ (Rect.block (s := S8192x8192) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x8192_S8192x1024_S8192x1024_1_0_0_1_n_n_wf : DotDims.WF S8192x8192 S8192x1024 S8192x1024 [1] [0] [0] [1] [] []
  dot_S8192x1024_S1024x1024_S8192x1024_1_1_0_0_n_n_wf : DotDims.WF S8192x1024 S1024x1024 S8192x1024 [1] [1] [0] [0] [] []

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.Spec.lean ====
/-
  One graph-convolution layer as ONE function of its four argument arrays, index by index, on the extended reals.

  With `f` the node features [8192, 1024], `adj` the adjacency [8192, 8192], `W` the linear weight [1024, 1024]
  (rows = output channels) and `b` the bias [1024]:

      agg n d   = ∑ j, adj (n, j) · f (j, d)                          -- neighbourhood aggregation
      layer n o = max ((∑ d, agg n d · W (o, d)) + b o) 0             -- linear map, bias, rectifier

  Both programs compute this. The only difference in arrangement is that the aggregation's sum over the 8192 nodes
  may be taken in two halves of 4096 — `(0 + ∑ first half) + ∑ second half` — and addition on the extended reals is
  commutative and associative with neutral element 0, so the halves add up to the whole sum whatever the summands are
  (infinite ones included): no finiteness is needed.
-/
import Idealize.ShloMosaic.PureOps.Ideal
import Idealize.ShloMosaic.Lib.ValueIdx

noncomputable section

open scoped BigOperators

namespace Cert.GraphConv

open Idealize.ShloMosaic Idealize.ShloMosaic.ValueIdx

/-- The shapes of the four arguments; the result has the features' shape. -/
abbrev Feat : Shape := ⟨2, ![8192, 1024]⟩
abbrev Adj : Shape := ⟨2, ![8192, 8192]⟩
abbrev Lin : Shape := ⟨2, ![1024, 1024]⟩
abbrev Bias : Shape := ⟨1, ![1024]⟩

/-- Entry (n, d) of the aggregated features `adj · f`: node `n`'s adjacency row against feature column `d`. -/
def agg (f : Feat.Idx → EReal) (adj : Adj.Idx → EReal) (n : Fin 8192) (d : Fin 1024) : EReal :=
  ∑ j : Fin 8192, adj (ix2 n j) * f (ix2 j d)

/-- Entry (n, o) of the layer's result: the aggregated row `n` against row `o` of the weight, plus the bias of
    channel `o`, rectified at zero (the zero spelt as the f32 zero word both programs print). -/
def layer (f : Feat.Idx → EReal) (adj : Adj.Idx → EReal) (W : Lin.Idx → EReal) (b : Bias.Idx → EReal) :
    Feat.Idx → EReal := fun i =>
  max ((∑ d : Fin 1024, agg f adj (i 0) d * W (ix2 (i 1) d)) + b (ix1 (i 1))) (Ideal.ofBits .f32 0x00000000#32)

/-- Position `j` of the first half of the 8192 nodes, and of the second half. -/
abbrev lo (j : Fin 4096) : Fin 8192 := ⟨j.val, by have := j.isLt; omega⟩
abbrev hi (j : Fin 4096) : Fin 8192 := ⟨4096 + j.val, by have := j.isLt; omega⟩

/-- A sum over the 8192 nodes is the sum over the first 4096 plus the sum over the last 4096, in any commutative
    monoid. -/
theorem sum_halves {M : Type*} [AddCommMonoid M] (g : Fin 8192 → M) :
    ∑ j : Fin 8192, g j = ∑ j : Fin 4096, g (lo j) + ∑ j : Fin 4096, g (hi j) :=
  Fin.sum_univ_add (a := 4096) (b := 4096) g

/-- The aggregation taken in two halves, the first added to zero and the second added to that, is the whole
    aggregation. -/
theorem agg_halves (f : Feat.Idx → EReal) (adj : Adj.Idx → EReal) (n : Fin 8192) (d : Fin 1024) :
    ((0 : EReal) + ∑ j : Fin 4096, adj (ix2 n (lo j)) * f (ix2 (lo j) d))
        + ∑ j : Fin 4096, adj (ix2 n (hi j)) * f (ix2 (hi j) d)
      = agg f adj n d := by
  unfold agg
  rw [zero_add, sum_halves (fun j => adj (ix2 n j) * f (ix2 j d))]

end Cert.GraphConv

end
-- ==== Proof.RefLayer.lean ====
/-
  The reference program's result, read index by index, is the layer of Spec.lean.

  The reference's run ends at `maximum (dot_general (dot_general adj f) W + broadcast b) (broadcast 0)`. Read at an
  index (n, o): the inner `dot_general` contracts the adjacency's columns with the features' rows, so its entry
  (n, d) is `∑ j, adj (n, j) · f (j, d)`; the outer one contracts axis 1 of that with axis 1 of the weight, so its
  entry (n, o) is `∑ d, agg (n, d) · W (o, d)`; the two broadcasts read the bias at `o`; the maximum is against
  the zero word. That is `layer` literally, once the generated index functions are written with `ix2` / `ix1`.
-/
import proofs.«149315_j68367289418480_2_alg».proof.Proof.Gen.ReferenceIdeal.Read
import proofs.«149315_j68367289418480_2_alg».proof.Proof.Spec

noncomputable section

open scoped BigOperators

namespace Cert.GraphConv.Ref

open Idealize.ShloMosaic Idealize.ShloMosaic.ValueIdx Cert.ReferenceIdeal Cert.ReferenceIdeal.Read Cert.GraphConv

/-- The generated operand indices of the two contractions and of the two broadcasts, by coordinates. -/
theorem lidx0 (n : Fin 8192) (d : Fin 1024) (j : Fin 8192) : lidx_main_v0 (ix2 n d) j = ix2 n j :=
  funext fun a => Fin.ext (by match a with | ⟨0, _⟩ => rfl | ⟨1, _⟩ => rfl)
theorem ridx0 (n : Fin 8192) (d : Fin 1024) (j : Fin 8192) : ridx_main_v0 (ix2 n d) j = ix2 j d :=
  funext fun a => Fin.ext (by match a with | ⟨0, _⟩ => rfl | ⟨1, _⟩ => rfl)
theorem lidx1 (n : Fin 8192) (o : Fin 1024) (d : Fin 1024) : lidx_main_v1 (ix2 n o) d = ix2 n d :=
  funext fun a => Fin.ext (by match a with | ⟨0, _⟩ => rfl | ⟨1, _⟩ => rfl)
theorem ridx1 (n : Fin 8192) (o : Fin 1024) (d : Fin 1024) : ridx_main_v1 (ix2 n o) d = ix2 o d :=
  funext fun a => Fin.ext (by match a with | ⟨0, _⟩ => rfl | ⟨1, _⟩ => rfl)
theorem bidx (n : Fin 8192) (o : Fin 1024) : idx_main_v2 (idx_main_v3 (ix2 n o)) = ix1 o :=
  funext fun a => Fin.ext (by match a with | ⟨0, _⟩ => rfl)

/-- The reference's last stage is the layer. -/
theorem val_eq_layer (f : Feat.Idx → EReal) (adj : Adj.Idx → EReal) (W : Lin.Idx → EReal) (b : Bias.Idx → EReal) :
    val_main_v5 (F := Ideal) f adj W b = layer f adj W b := by
  funext i
  obtain ⟨n, o, rfl⟩ : ∃ (n : Fin 8192) (o : Fin 1024), i = ix2 n o := ⟨i 0, i 1, eq_ix2 i⟩
  rw [val_main_v5_apply, val_main_v4_apply, val_main_v1_apply, val_main_v3_apply, val_main_v2_apply,
    val_main_call0_v0_apply, val_main_call0_cst_apply]
  simp only [val_main_v0_apply, lidx0, ridx0, lidx1, ridx1, bidx, Ideal.maximumf_def, Ideal.addf_def, Ideal.ofBits_def]
  rfl

end Cert.GraphConv.Ref

end
-- ==== Proof.Cases.lean ====
/-
  What the kernel body leaves behind in each of its two control cases, as values of its input blocks.

  The grid's second axis has two points per row tile. At the first (case A) the body resets the accumulator to
  zero, reads it back and stores `step tile chunk reset`: the accumulator ends at that value. At the second (case B)
  it stores `step tile chunk acc` over the accumulator `acc` the first point left, reads that back, and stores
  `output (step tile chunk acc) weight bias` into the output tile. Here `chunk` is the 4096 rows of the resident
  feature array that start at the offset the grid point names, every other load reads a whole buffer, and each final
  store covers its whole buffer, so what is read back is exactly the stored value.
-/
import proofs.«149315_j68367289418480_2_alg».proof.Proof.Gen.KernelIdeal.Frame
import Idealize.ShloMosaic.Lib.Pipeline.Value
import Idealize.ShloMosaic.Lib.Tactic

set_option maxRecDepth 16384

noncomputable section

namespace Cert.GraphConv.Cases

open Idealize.ShloMosaic Idealize.ShloMosaic.TcCoe Idealize.ShloMosaic.Tactic Idealize.SL.Sem Cert.KernelIdeal Cert.KernelIdeal.Gen

variable {F : FTy → Type} [FloatOps F]

theorem hz : (![0, 0] : Fin 2 → Nat) = fun _ => 0 := funext fun a => by fin_cases a <;> rfl

/-- The rows of the resident feature array a grid point's body loads: 4096 rows from the point's offset. -/
abbrev chunk (i : grid0.Coords) (x1 : Vec F S8192x1024 .bf16) : Vec F S4096x1024 .bf16 :=
  View.ld (S := S8192x1024) x1 (Rect.unit (k0_off1 i) S4096x1024.size (Gen.k0_off1_inb i))

/-- CASE A leaves, in the accumulator, one step over the reset value. -/
theorem acc_A (c : Dev nD) (i : grid0.Coords) (arg2 : Memref sig .tc .vmem S256x4096 .f32) (harg2 : arg2.IsWhole) (arg3 : Memref sig .tc .vmem S8192x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S8192x1024 .bf16) (x2 : Vec F S1024x1024 .bf16) (x3 : Vec F S1x1024 .f32) :
    sout0_A_0 c i arg2 harg2 arg3 harg3 arg4 harg4 arg5 harg5 arg6 harg6 arg7 harg7 hc0 hc1 x0 x1 x2 x3 = k0_pay2 x0 (chunk i x1) k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_run_names
  rw [View.canon_cons_unit_zero (S := S256x1024) hz, View.readCov_unit_zero (S := S256x1024) _ hz]
  simp only [View.readAt_eq_ld, harg2.read_unread, harg3.read_unread, View.ld_unit_zero (S := S256x4096) hz]

/-- CASE B leaves, in the output tile, the output value of one more step over the accumulator it was handed. -/
theorem out_B (c : Dev nD) (i : grid0.Coords) (arg2 : Memref sig .tc .vmem S256x4096 .f32) (harg2 : arg2.IsWhole) (arg3 : Memref sig .tc .vmem S8192x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S8192x1024 .bf16) (x2 : Vec F S1024x1024 .bf16) (x3 : Vec F S1x1024 .f32)
    (xs0 : Vec F S256x1024 .f32) :
    out0_B_4 c i arg2 harg2 arg3 harg3 arg4 harg4 arg5 harg5 arg6 harg6 arg7 harg7 hc0 hc1 x0 x1 x2 x3 xs0 = k0_pay3 (k0_pay2 x0 (chunk i x1) xs0) x2 x3 := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_run_names
  rw [View.canon_unit_zero hz, View.readCov_unit_zero (S := S256x1024) _ hz]
  simp only [View.readAt_eq_ld, harg2.read_unread, harg3.read_unread, harg4.read_unread, harg5.read_unread,
    harg7.read_unread, View.ld_unit_zero (S := S256x4096) hz, View.ld_unit_zero (S := S256x1024) hz,
    View.ld_unit_zero (S := S1024x1024) hz, View.ld_unit_zero (S := S1x1024) hz]

end Cert.GraphConv.Cases

end
-- ==== Proof.Body.lean ====
/-
  The kernel body's three stored values, read at one entry (p, q) of the 256 × 1024 tile, on the extended reals.

  * the reset value is 0 everywhere;
  * the accumulation step over an adjacency tile `a` (256 × 4096) and a feature chunk `f` (4096 × 1024) adds to the
    accumulator's entry the product's entry, `acc (p, q) + ∑ j, a (p, j) · f (j, q)`: the matrix unit's product into
    a zero accumulator is the plain sum over the one contracted axis, and narrowing the tile's float format changes
    nothing on the extended reals;
  * the output value over the accumulator, the transposed weight `w` (1024 × 1024) and the bias row `bb`
    (1 × 1024) is `max ((∑ d, acc (p, d) · w (d, q)) + bb (0, q)) 0`: a second such product, the one bias row
    repeated over the 256 rows, and the rectifier against the zero word.
-/
import proofs.«149315_j68367289418480_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.GraphConv.Body

open Idealize.ShloMosaic Idealize.ShloMosaic.ValueIdx Cert.KernelIdeal Cert.KernelIdeal.Gen

/-- The dimension numbers of the two products: rows × contraction times contraction × columns. -/
abbrev aggDot := dot_S256x4096_S4096x1024_S256x1024_1_0_0_1_n_n
abbrev linDot := dot_S256x1024_S1024x1024_S256x1024_1_0_0_1_n_n

/-! ## The operand indices of the two products -/

theorem aggDot_lhs0 (i : S256x1024.Idx) (k : aggDot.contr.Idx) : (aggDot.lhsIdx i k 0).val = (i 0).val := by
  unfold DotDims.lhsIdx
  rw [dif_neg (show ¬(0 : Fin S256x4096.rank) ∈ aggDot.lhsBatch by decide),
    dif_pos (show (0 : Fin S256x4096.rank) ∈ aggDot.lhsNonContracting by decide)]
  rfl

theorem aggDot_rhs1 (i : S256x1024.Idx) (k : aggDot.contr.Idx) : (aggDot.rhsIdx i k 1).val = (i 1).val := by
  unfold DotDims.rhsIdx
  rw [dif_neg (show ¬(1 : Fin S4096x1024.rank) ∈ aggDot.rhsBatch by decide),
    dif_pos (show (1 : Fin S4096x1024.rank) ∈ aggDot.rhsNonContracting by decide)]
  rfl

theorem linDot_lhs0 (i : S256x1024.Idx) (k : linDot.contr.Idx) : (linDot.lhsIdx i k 0).val = (i 0).val := by
  unfold DotDims.lhsIdx
  rw [dif_neg (show ¬(0 : Fin S256x1024.rank) ∈ linDot.lhsBatch by decide),
    dif_pos (show (0 : Fin S256x1024.rank) ∈ linDot.lhsNonContracting by decide)]
  rfl

theorem linDot_rhs1 (i : S256x1024.Idx) (k : linDot.contr.Idx) : (linDot.rhsIdx i k 1).val = (i 1).val := by
  unfold DotDims.rhsIdx
  rw [dif_neg (show ¬(1 : Fin S1024x1024.rank) ∈ linDot.rhsBatch by decide),
    dif_pos (show (1 : Fin S1024x1024.rank) ∈ linDot.rhsNonContracting by decide)]
  rfl

/-! ## The two products into a zero accumulator, at an entry -/

/-- An adjacency tile times a feature chunk, into zero: entry (p, q) is the sum over the chunk's 4096 nodes. -/
theorem agg_product_apply (a : FVec Ideal S256x4096 .bf16) (f : FVec Ideal S4096x1024 .bf16) (p : Fin 256) (q : Fin 1024) :
    matmul aggDot none a f (constant (F := Ideal) S256x1024 .f32 0x00000000#32) (ix2 p q)
      = ∑ j : Fin 4096, a (ix2 p j) * f (ix2 j q) := by
  refine (Ideal.matmul_constant_zero_apply aggDot none a f (ix2 p q)).trans ?_
  rw [← Equiv.sum_comp (contrEquiv1 aggDot 4096 rfl rfl).symm]
  refine Finset.sum_congr rfl fun k _ => ?_
  have hk := contrEquiv1_symm_val aggDot 4096 rfl rfl k
  have el : aggDot.lhsIdx (ix2 p q) ((contrEquiv1 aggDot 4096 rfl rfl).symm k) = ix2 p k := funext fun ax => Fin.ext (by
    match ax with
    | ⟨0, _⟩ => exact aggDot_lhs0 _ _
    | ⟨1, _⟩ => exact (aggDot.lhsIdx_val_of_single rfl _ _).trans hk)
  have er : aggDot.rhsIdx (ix2 p q) ((contrEquiv1 aggDot 4096 rfl rfl).symm k) = ix2 k q := funext fun ax => Fin.ext (by
    match ax with
    | ⟨0, _⟩ => exact (aggDot.rhsIdx_val_of_single rfl _ _).trans hk
    | ⟨1, _⟩ => exact aggDot_rhs1 _ _)
  rw [el, er]

/-- The accumulated tile times the transposed weight, into zero: entry (p, q) is the sum over the 1024 channels. -/
theorem lin_product_apply (x : FVec Ideal S256x1024 .bf16) (w : FVec Ideal S1024x1024 .bf16) (p : Fin 256) (q : Fin 1024) :
    matmul linDot none x w (constant (F := Ideal) S256x1024 .f32 0x00000000#32) (ix2 p q)
      = ∑ d : Fin 1024, x (ix2 p d) * w (ix2 d q) := by
  refine (Ideal.matmul_constant_zero_apply linDot none x w (ix2 p q)).trans ?_
  rw [← Equiv.sum_comp (contrEquiv1 linDot 1024 rfl rfl).symm]
  refine Finset.sum_congr rfl fun k _ => ?_
  have hk := contrEquiv1_symm_val linDot 1024 rfl rfl k
  have el : linDot.lhsIdx (ix2 p q) ((contrEquiv1 linDot 1024 rfl rfl).symm k) = ix2 p k := funext fun ax => Fin.ext (by
    match ax with
    | ⟨0, _⟩ => exact linDot_lhs0 _ _
    | ⟨1, _⟩ => exact (linDot.lhsIdx_val_of_single rfl _ _).trans hk)
  have er : linDot.rhsIdx (ix2 p q) ((contrEquiv1 linDot 1024 rfl rfl).symm k) = ix2 k q := funext fun ax => Fin.ext (by
    match ax with
    | ⟨0, _⟩ => exact (linDot.rhsIdx_val_of_single rfl _ _).trans hk
    | ⟨1, _⟩ => exact linDot_rhs1 _ _)
  rw [el, er]

/-! ## The three stored values at an entry -/

/-- The reset value: zero. -/
theorem reset_apply (p : Fin 256) (q : Fin 1024) : k0_pay1 (F := Ideal) (ix2 p q) = 0 := by
  unfold k0_pay1
  simp only [shapeCast_self]
  exact Ideal.ofBits_zero_f32

/-- The accumulation step. -/
theorem step_apply (a : FVec Ideal S256x4096 .f32) (f : FVec Ideal S4096x1024 .bf16) (acc : FVec Ideal S256x1024 .f32)
    (p : Fin 256) (q : Fin 1024) :
    k0_pay2 (F := Ideal) a f acc (ix2 p q) = acc (ix2 p q) + ∑ j : Fin 4096, a (ix2 p j) * f (ix2 j q) := by
  unfold k0_pay2
  simp only [shapeCast_self]
  exact congrArg (acc (ix2 p q) + ·) (agg_product_apply (truncf .bf16 a bitsLt_bf16_f32) f p q)

/-- The output value. -/
theorem out_apply (acc : FVec Ideal S256x1024 .f32) (w : FVec Ideal S1024x1024 .bf16) (bb : FVec Ideal S1x1024 .f32)
    (p : Fin 256) (q : Fin 1024) :
    k0_pay3 (F := Ideal) acc w bb (ix2 p q)
      = max ((∑ d : Fin 1024, acc (ix2 p d) * w (ix2 d q)) + bb (ix2 (0 : Fin 1) q)) (Ideal.ofBits .f32 0x00000000#32) := by
  unfold k0_pay3
  simp only [shapeCast_self]
  refine congrArg (max · (Ideal.ofBits .f32 0x00000000#32)) ?_
  exact congrArg₂ (· + ·) (lin_product_apply (truncf .bf16 acc bitsLt_bf16_f32) w p q)
    (broadcastTo_1b_ab_apply bb broadcasts_S1x1024_S256x1024 p q)

end Cert.GraphConv.Body

end
-- ==== Proof.Tile.lean ====
/-
  One row tile's stored value is the layer at the tile's rows.

  Row tile `r` (of 32) holds rows `256·r + p`. At its second grid point the body stores, over the accumulator the
  first point left, `output (step a1 f1 (step a0 f0 reset))` where `a0`, `a1` are the tile's adjacency blocks over
  the first and the last 4096 nodes, `f0`, `f1` the features' first and last 4096 rows, `w` the transposed weight
  and `bb` the bias as one row. Entry (p, q) of that value is

      max ((∑ d, ((0 + ∑ j, a0 (p, j) · f0 (j, d)) + ∑ j, a1 (p, j) · f1 (j, d)) · w (d, q)) + bb (0, q)) 0,

  and once each block is read as the part of its argument array it is, the two half sums are the aggregation of
  node `256·r + p` (Spec.lean, `agg_halves`), `w (d, q)` is `W (q, d)`, and this is `layer` at (256·r + p, q).
-/
import proofs.«149315_j68367289418480_2_alg».proof.Proof.Body
import proofs.«149315_j68367289418480_2_alg».proof.Proof.Spec

noncomputable section

open scoped BigOperators

namespace Cert.GraphConv.Tile

open Idealize.ShloMosaic Idealize.ShloMosaic.ValueIdx Cert.KernelIdeal Cert.KernelIdeal.Gen Cert.GraphConv Cert.GraphConv.Body

/-- Row `p` of row tile `r`, as a node. -/
abbrev row (r : Fin 32) (p : Fin 256) : Fin 8192 := ⟨256 * r.val + p.val, by have := r.isLt; have := p.isLt; omega⟩

theorem tile_apply (f : Feat.Idx → EReal) (adj : Adj.Idx → EReal) (W : Lin.Idx → EReal) (b : Bias.Idx → EReal) (r : Fin 32)
    (a0 a1 : FVec Ideal S256x4096 .f32) (f0 f1 : FVec Ideal S4096x1024 .bf16)
    (w : FVec Ideal S1024x1024 .bf16) (bb : FVec Ideal S1x1024 .f32)
    (ha0 : ∀ (p : Fin 256) (j : Fin 4096), a0 (ix2 p j) = adj (ix2 (row r p) (lo j)))
    (ha1 : ∀ (p : Fin 256) (j : Fin 4096), a1 (ix2 p j) = adj (ix2 (row r p) (hi j)))
    (hf0 : ∀ (j : Fin 4096) (d : Fin 1024), f0 (ix2 j d) = f (ix2 (lo j) d))
    (hf1 : ∀ (j : Fin 4096) (d : Fin 1024), f1 (ix2 j d) = f (ix2 (hi j) d))
    (hw : ∀ (d q : Fin 1024), w (ix2 d q) = W (ix2 q d))
    (hb : ∀ q : Fin 1024, bb (ix2 (0 : Fin 1) q) = b (ix1 q))
    (p : Fin 256) (q : Fin 1024) :
    k0_pay3 (F := Ideal) (k0_pay2 (F := Ideal) a1 f1 (k0_pay2 (F := Ideal) a0 f0 (k0_pay1 (F := Ideal)))) w bb (ix2 p q)
      = layer f adj W b (ix2 (row r p) q) := by
  rw [out_apply]
  show _ = max ((∑ d : Fin 1024, agg f adj (row r p) d * W (ix2 q d)) + b (ix1 q)) (Ideal.ofBits .f32 0x00000000#32)
  refine congrArg (max · (Ideal.ofBits .f32 0x00000000#32)) (congrArg₂ (· + ·) (Finset.sum_congr rfl fun d _ => ?_) (hb q))
  rw [step_apply, step_apply, reset_apply, hw]
  simp only [ha0, ha1, hf0, hf1]
  rw [agg_halves]

end Cert.GraphConv.Tile

end
-- ==== Proof.Blocks.lean ====
/-
  From the tiles the kernel writes back to its whole result array.

  The grid has 64 points, `t = 2·r + k` for row tile `r` (of 32) and half `k` (of 2). The result's window is written
  back at the odd points, and its block at `t` is rows `256·(t / 2) … 256·(t / 2) + 255`, all 1024 columns. What an odd
  point `t` writes back is the output value of case B over the accumulator case A left at `t - 1` (Cases.lean), whose
  six input blocks are parts of the argument arrays:

  * the adjacency window's block at `t` is rows `256·(t / 2) + p`, columns `4096·(t mod 2) + j` of `adj`;
  * the feature window holds the whole array the host narrowed from `features` (the same extended reals), and the
    body takes rows `4096·(t mod 2) + j` of it;
  * the weight window holds the host's transpose of `W`, so its entry (d, q) is `W (q, d)`;
  * the bias window holds `b` recast as one row.

  So the written tile is `layer` at the tile's rows (Tile.lean), every row lies in the tile of the odd point
  `2·(row / 256) + 1`, and the array ends holding `layer` of the four arguments.
-/
import proofs.«149315_j68367289418480_2_alg».proof.Proof.Gen.KernelIdeal.Value
import proofs.«149315_j68367289418480_2_alg».proof.Proof.Cases
import proofs.«149315_j68367289418480_2_alg».proof.Proof.Tile
import Idealize.ShloMosaic.Lib.Pipeline.Value
import Idealize.ShloMosaic.Lib.StableHlo.Run
import Idealize.ShloMosaic.Lib.ValueLayout

noncomputable section

namespace Cert.GraphConv.Kernel

open Idealize.ShloMosaic Idealize.ShloMosaic.TcCoe Idealize.ShloMosaic.ValueIdx Idealize.SL.Sem Idealize.ShloMosaic.StableHlo
open Cert.KernelIdeal Cert.KernelIdeal.Gen Cert.GraphConv Cert.GraphConv.Tile Cert.GraphConv.Cases
open Idealize.ShloMosaic.Pipeline (Dat)

variable (m : (ℓ : Loc nD τ sig) → Buf (Elt Ideal) ℓ) (ρ : Dev nD → PrngReg)

/-! ## The arguments and the result on one core -/

abbrev argF (c : Dev nD) : Feat.Idx → EReal := m ((c : Thread nD τ).loc main_arg0)
abbrev argA (c : Dev nD) : Adj.Idx → EReal := m ((c : Thread nD τ).loc main_arg1)
abbrev argW (c : Dev nD) : Lin.Idx → EReal := m ((c : Thread nD τ).loc main_arg2)
abbrev argB (c : Dev nD) : Bias.Idx → EReal := m ((c : Thread nD τ).loc main_arg3)

/-- What the result array ends holding: the layer of the four arguments. -/
abbrev result (c : Dev nD) : Buf (Elt Ideal) ((c : Thread nD τ).loc main_v4) :=
  layer (argF m c) (argA m c) (argW m c) (argB m c)

/-! ## What the region finds in the arrays the host wrote -/

/-- The narrowed features are the features. -/
theorem V_feat (c : Dev nD) : (V m c main_v0 : S8192x1024.Idx → EReal) = m ((c : Thread nD τ).loc main_arg0) := by
  dsimp only [Gen.V, Gen.hostOps0]
  after_results
  rfl

/-- The narrowed transposed weight is the weight's transpose. -/
theorem V_wt (c : Dev nD) : (V m c main_v2 : S1024x1024.Idx → EReal)
    = transpose S1024x1024 [1, 0] (m ((c : Thread nD τ).loc main_arg2)) transposes_S1024x1024_S1024x1024_1_0 := by
  dsimp only [Gen.V, Gen.hostOps0]
  after_results
  rfl

/-- The bias row is the bias recast. -/
theorem V_bias (c : Dev nD) : (V m c main_v3 : S1x1024.Idx → EReal)
    = shapeCast S1x1024 (m ((c : Thread nD τ).loc main_arg3)) shapeCasts_S1024_S1x1024 := by
  dsimp only [Gen.V, Gen.hostOps0]
  after_results
  rfl

/-! ## The printed index maps over the grid -/

theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 2 ∧ win0_4.index t (1 : Fin 2) = 0
    ∧ ((grid0.coords t) (1 : Fin 2)).val = t.val % 2 :=
  (by decide +kernel : ∀ t : Fin grid0.N, _)

/-- The feature chunk's offsets at a point. -/
theorem off_facts (t : Fin cfg0.N) :
    k0_off1 (grid0.coords t) (0 : Fin 2) = 4096 * (t.val % 2) ∧ k0_off1 (grid0.coords t) (1 : Fin 2) = 0 := by
  obtain ⟨-, -, -, -, -, -, -, -, -, -, eg⟩ := idx_facts t
  rw [k0_off1_eq]
  exact ⟨by show 4096 * ((grid0.coords t) (1 : Fin 2)).val = _; rw [eg], rfl⟩

/-! ## The input blocks as parts of the argument arrays -/

/-- The adjacency tile at point `t`: row tile `t / 2`, column half `t mod 2`. -/
theorem adj_tile (c : Dev nD) (t : Fin cfg0.N) (r : Fin 32) (hr : t.val / 2 = r.val) (p : Fin 256) (j : Fin 4096)
    (n : Fin 8192) (hn : n.val = 4096 * (t.val % 2) + j.val) :
    (iblk m c 0 t : FVec Ideal S256x4096 .f32) (ix2 p j) = argA m c (ix2 (row r p) n) := by
  obtain ⟨e0, e1, -⟩ := idx_facts t
  unfold iblk
  rw [View.read_apply]
  show V m c main_arg1 _ = m ((c : Thread nD τ).loc main_arg1) _
  rw [V_main_arg1 m c]
  refine congrArg (m ((c : Thread nD τ).loc main_arg1)) (funext fun a => Fin.ext ?_)
  match a with
  | ⟨0, _⟩ => show win0_0.index t (0 : Fin 2) * 256 + 1 * p.val = 256 * r.val + p.val; rw [e0, hr]; omega
  | ⟨1, _⟩ => show win0_0.index t (1 : Fin 2) * 4096 + 1 * j.val = n.val; rw [e1, hn]; omega

/-- The feature chunk the body takes at point `t`: rows `4096·(t mod 2) + j` of the features. -/
theorem feat_chunk (c : Dev nD) (t : Fin cfg0.N) (j : Fin 4096) (d : Fin 1024)
    (n : Fin 8192) (hn : n.val = 4096 * (t.val % 2) + j.val) :
    chunk (F := Ideal) (grid0.coords t) (iblk m c 1 t) (ix2 j d) = argF m c (ix2 n d) := by
  obtain ⟨-, -, e0, e1, -⟩ := idx_facts t
  obtain ⟨o0, o1⟩ := off_facts t
  show iblk m c 1 t ((Rect.unit (s := S8192x1024) (k0_off1 (grid0.coords t)) S4096x1024.size (Gen.k0_off1_inb (grid0.coords t))).emb (ix2 j d)) = _
  unfold iblk
  rw [View.read_apply]
  show V m c main_v0 _ = m ((c : Thread nD τ).loc main_arg0) _
  rw [V_feat m c]
  refine congrArg (m ((c : Thread nD τ).loc main_arg0)) (funext fun a => Fin.ext ?_)
  match a with
  | ⟨0, _⟩ => show win0_1.index t (0 : Fin 2) * 8192 + 1 * (k0_off1 (grid0.coords t) (0 : Fin 2) + 1 * j.val) = n.val; rw [e0, o0, hn]; omega
  | ⟨1, _⟩ => show win0_1.index t (1 : Fin 2) * 1024 + 1 * (k0_off1 (grid0.coords t) (1 : Fin 2) + 1 * d.val) = d.val; rw [e1, o1]; omega

/-- The weight block: entry (d, q) is `W (q, d)`. -/
theorem wt_block (c : Dev nD) (t : Fin cfg0.N) (d q : Fin 1024) :
    (iblk m c 2 t : FVec Ideal S1024x1024 .bf16) (ix2 d q) = argW m c (ix2 q d) := by
  obtain ⟨-, -, -, -, e0, e1, -⟩ := idx_facts t
  unfold iblk
  rw [View.read_apply]
  show V m c main_v2 _ = _
  rw [V_wt m c]
  refine (congrArg (transpose S1024x1024 [1, 0] (m ((c : Thread nD τ).loc main_arg2)) transposes_S1024x1024_S1024x1024_1_0)
    (funext fun a => Fin.ext ?_)).trans (transpose_ix2_apply (m ((c : Thread nD τ).loc main_arg2)) transposes_S1024x1024_S1024x1024_1_0 d q)
  match a with
  | ⟨0, _⟩ => show win0_2.index t (0 : Fin 2) * 1024 + 1 * d.val = d.val; rw [e0]; omega
  | ⟨1, _⟩ => show win0_2.index t (1 : Fin 2) * 1024 + 1 * q.val = q.val; rw [e1]; omega

/-- The bias block: its one row at `q` is `b q`. -/
theorem bias_block (c : Dev nD) (t : Fin cfg0.N) (q : Fin 1024) :
    (iblk m c 3 t : FVec Ideal S1x1024 .f32) (ix2 (0 : Fin 1) q) = argB m c (ix1 q) := by
  obtain ⟨-, -, -, -, -, -, e0, e1, -⟩ := idx_facts t
  unfold iblk
  rw [View.read_apply]
  show V m c main_v3 _ = _
  rw [V_bias m c]
  refine (congrArg (shapeCast S1x1024 (m ((c : Thread nD τ).loc main_arg3)) shapeCasts_S1024_S1x1024)
    (funext fun a => Fin.ext ?_)).trans (shapeCast_a_1a_apply (m ((c : Thread nD τ).loc main_arg3)) shapeCasts_S1024_S1x1024 (0 : Fin 1) q)
  match a with
  | ⟨0, _⟩ => show win0_3.index t (0 : Fin 2) * 1 + 1 * 0 = 0; rw [e0]
  | ⟨1, _⟩ => show win0_3.index t (1 : Fin 2) * 1024 + 1 * q.val = q.val; rw [e1]; omega

/-! ## What an odd point writes back -/

theorem flushed_eq (c : Dev nD) (t : Fin cfg0.N) (hf : (cfg0.win 4).flush t = true) :
    (dats m 0 c).flushed 4 t = ((cfg0.win 4).blk t).view.read (Elt Ideal) (result m c) := by
  have hN : cfg0.N = 64 := N_0
  have hT : t.val < 64 := lt_of_lt_of_eq t.isLt hN
  have h1 : t.val % 2 = 1 := (flush0_4 t).mp hf
  have h0 : ¬t.val % 2 = 0 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  obtain ⟨-, -, -, -, -, -, -, -, e0, e1, -⟩ := idx_facts t
  rw [Cert.KernelIdeal.Value.flushed4_B m c t h0 h1]
  have hacc : (outsAt0 m c (t.val - 1) hlt).2 = _ := congrArg Prod.snd (outsAt0_A m c ⟨t.val - 1, hlt⟩ h0' h1')
  rw [hacc]
  dsimp only
  rw [acc_A (F := Ideal) c (grid0.coords ⟨t.val - 1, hlt⟩) (ms0_0 ⟨t.val - 1, hlt⟩) (hs0_0 ⟨t.val - 1, hlt⟩) (ms0_1 ⟨t.val - 1, hlt⟩) (hs0_1 ⟨t.val - 1, hlt⟩) (ms0_2 ⟨t.val - 1, hlt⟩) (hs0_2 ⟨t.val - 1, hlt⟩) (ms0_3 ⟨t.val - 1, hlt⟩) (hs0_3 ⟨t.val - 1, hlt⟩) (ms0_4 ⟨t.val - 1, hlt⟩) (hs0_4 ⟨t.val - 1, hlt⟩) scM0_0 (Memref.isWhole_whole _) ((hcond0_0 ⟨t.val - 1, hlt⟩).mpr h0') (fun h => h1' ((hcond0_1 ⟨t.val - 1, hlt⟩).mp h)) (iblk m c 0 ⟨t.val - 1, hlt⟩) (iblk m c 1 ⟨t.val - 1, hlt⟩) (iblk m c 2 ⟨t.val - 1, hlt⟩) (iblk m c 3 ⟨t.val - 1, hlt⟩)]
  rw [out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)]
  funext y
  rw [View.read_apply]
  obtain ⟨p, q, rfl⟩ : ∃ (p : Fin 256) (q : Fin 1024), y = ix2 p q := ⟨y 0, y 1, eq_ix2 (n0 := 256) (n1 := 1024) y⟩
  refine (tile_apply (argF m c) (argA m c) (argW m c) (argB m c) ⟨t.val / 2, by omega⟩
    (iblk m c 0 ⟨t.val - 1, hlt⟩) (iblk m c 0 t)
    (chunk (F := Ideal) (grid0.coords ⟨t.val - 1, hlt⟩) (iblk m c 1 ⟨t.val - 1, hlt⟩)) (chunk (F := Ideal) (grid0.coords t) (iblk m c 1 t))
    (iblk m c 2 t) (iblk m c 3 t)
    (fun p j => adj_tile m c ⟨t.val - 1, hlt⟩ ⟨t.val / 2, by omega⟩ (by show (t.val - 1) / 2 = t.val / 2; omega) p j (lo j)
      (by show j.val = 4096 * ((t.val - 1) % 2) + j.val; omega))
    (fun p j => adj_tile m c t ⟨t.val / 2, by omega⟩ rfl p j (hi j) (by show 4096 + j.val = 4096 * (t.val % 2) + j.val; omega))
    (fun j d => feat_chunk m c ⟨t.val - 1, hlt⟩ j d (lo j) (by show j.val = 4096 * ((t.val - 1) % 2) + j.val; omega))
    (fun j d => feat_chunk m c t j d (hi j) (by show 4096 + j.val = 4096 * (t.val % 2) + j.val; omega))
    (fun d q => wt_block m c t d q) (fun q => bias_block m c t q) p q).trans ?_
  refine congrArg (result m c) (funext fun a => Fin.ext ?_)
  match a with
  | ⟨0, _⟩ => show 256 * (t.val / 2) + p.val = win0_4.index t (0 : Fin 2) * 256 + 1 * p.val; rw [e0]; omega
  | ⟨1, _⟩ => show q.val = win0_4.index t (1 : Fin 2) * 1024 + 1 * q.val; rw [e1]; omega

/-! ## The tiles cover the array -/

/-- An index of the array is in point `t`'s block iff each coordinate is in the block's range on its axis. -/
theorem mem_blk (t : Fin cfg0.N) (i : S8192x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v4).slice (win0_4.rect t)).set ↔ _
  rw [View.set_slice_whole, Rect.mem_set_unit]
  exact Iff.rfl

/-- Row `n` lies in the tile the odd point `2·(n / 256) + 1` writes back. -/
theorem cover (i : S8192x1024.Idx) : ∃ t : Fin cfg0.N, (cfg0.win 4).flush t = true ∧ i ∈ ((cfg0.win 4).blk t).view.set := by
  have hN : cfg0.N = 64 := N_0
  have hi0 : (i 0).val < 8192 := (i 0).isLt
  have hi1 : (i 1).val < 1024 := (i 1).isLt
  have hlt : 2 * ((i 0).val / 256) + 1 < cfg0.N := by rw [hN]; omega
  obtain ⟨-, -, -, -, -, -, -, -, e0, e1, -⟩ := idx_facts ⟨2 * ((i 0).val / 256) + 1, hlt⟩
  have e0' : win0_4.index ⟨2 * ((i 0).val / 256) + 1, hlt⟩ (0 : Fin 2) = (2 * ((i 0).val / 256) + 1) / 2 := e0
  refine ⟨⟨2 * ((i 0).val / 256) + 1, hlt⟩, (flush0_4 _).mpr (by show (2 * ((i 0).val / 256) + 1) % 2 = 1; omega), ?_⟩
  rw [mem_blk]
  intro a
  match a with
  | ⟨0, _⟩ =>
    show win0_4.index ⟨2 * ((i 0).val / 256) + 1, hlt⟩ (0 : Fin 2) * 256 ≤ (i 0).val ∧ (i 0).val < win0_4.index ⟨2 * ((i 0).val / 256) + 1, hlt⟩ (0 : Fin 2) * 256 + 256
    rw [e0']; omega
  | ⟨1, _⟩ =>
    show win0_4.index ⟨2 * ((i 0).val / 256) + 1, hlt⟩ (1 : Fin 2) * 1024 ≤ (i 1).val ∧ (i 1).val < win0_4.index ⟨2 * ((i 0).val / 256) + 1, hlt⟩ (1 : Fin 2) * 1024 + 1024
    rw [e1]; omega

/-! ## The array after the run, and the run -/

theorem final (c : Dev nD) : (dats m 0 c).arrAt 4 cfg0.N = result m c :=
  (dats m 0 c).arrAt_eq_of_cover 4 (result m c) (flushed_eq m c) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.GraphConv.Kernel

end
-- ==== Proof.lean ====
/-
  A graph-convolution layer, `relu ((adj · features) · Wᵀ + b)`, computed by a fused tiled kernel and by the plain
  formula: the two agree on the extended reals.

  The kernel walks 32 row tiles of 256 nodes, each in two steps over the halves of the 8192 neighbours: the first
  step resets an accumulator and adds the tile's product with the first 4096 feature rows, the second adds the
  product with the last 4096 rows and then stores `max (acc · Wᵀ + b) 0` as the tile of the result. The reference
  contracts the whole adjacency with the features at once. Index by index both are

      max ((∑ d, (∑ j, adj (n, j) · f (j, d)) · W (o, d)) + b o) 0

  (Proof/Spec.lean): the reference literally (Proof/RefLayer.lean), the kernel after the sum over the neighbours is
  put together from its two halves, which addition's commutativity and associativity on the extended reals allow for
  any summands, so the inputs' finiteness is never used (Proof/Body.lean: the stored values at an entry;
  Proof/Cases.lean: what each step leaves behind; Proof/Tile.lean: a tile is the layer at its rows;
  Proof/Blocks.lean: the tiles make up the array). Changing a float's format is the identity on the extended
  reals, so the kernel's narrowed operands are the arguments themselves; the idealized kernel is the kernel's own
  text, so there is nothing to preserve beyond that.
-/
import proofs.«149315_j68367289418480_2_alg».proof.Defs
import proofs.«149315_j68367289418480_2_alg».proof.Proof.Gen.Kernel
import proofs.«149315_j68367289418480_2_alg».proof.Proof.Gen.Kernel.Frame
import proofs.«149315_j68367289418480_2_alg».proof.Proof.Gen.KernelIdeal
import proofs.«149315_j68367289418480_2_alg».proof.Proof.Gen.KernelIdeal.Frame
import proofs.«149315_j68367289418480_2_alg».proof.Proof.Gen.KernelIdeal.Value
import proofs.«149315_j68367289418480_2_alg».proof.Proof.Gen.ReferenceIdeal
import proofs.«149315_j68367289418480_2_alg».proof.Proof.Gen.ReferenceIdeal.Run
import proofs.«149315_j68367289418480_2_alg».proof.Proof.Gen.ReferenceIdeal.Read
import proofs.«149315_j68367289418480_2_alg».proof.Proof.Gen.Pre_finite_inputs
import proofs.«149315_j68367289418480_2_alg».proof.Proof.RefLayer
import proofs.«149315_j68367289418480_2_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the four arguments, the kernel's result array ends at the layer of its arguments
    (Proof/Blocks.lean) and the reference's at the layer of its own (Proof/RefLayer.lean): the same array. -/
theorem algebraic : Cert.algebraic_KernelIdeal_ReferenceIdeal := by
  intro m ρ m' ρ' _ hagree
  refine ⟨fun c => Cert.GraphConv.Kernel.result m c, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphConv.Ref.val_eq_layer, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
